-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn_part1 {F : FTy → Type} [FloatOps F] (main_v13 : IVec S_ 1) (main_v16 : IVec S8x64x256x256 1) : IVec S_ 1 :=
  let main_c_5 : IVec S_ 1 := constantI S_ 1 1#1
  let main_v17 : IVec S_ 1 := (fun x v => Host.reduce IntOp.andi x v reducesTo_S8x64x256x256_S_d0_1_2_3 h_S_) main_v16 main_c_5
  let main_v18 : IVec S_ 1 := andi main_v13 main_v17
  main_v18

def fn {F : FTy → Type} [FloatOps F] (main_arg0 : FVec F S8x64x256x256 .f32) (main_arg1 : FVec F S8x64x256x256 .f32) (main_arg2 : FVec F S8x64x256x256 .f32) (main_arg3 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x64x256x256 .f32 := Host.absf main_arg1
  let main_cst_0 : FVec F S_ .f32 := constant S_ .f32 0x7F800000#32
  let main_v5 : FVec F S8x64x256x256 .f32 := broadcastInDim S8x64x256x256 ![] bcast_S_S8x64x256x256 main_cst_0
  let main_v6 : IVec S8x64x256x256 1 := cmpf .olt main_v4 main_v5
  let main_c_1 : IVec S_ 1 := constantI S_ 1 1#1
  let main_v7 : IVec S_ 1 := (fun x v => Host.reduce IntOp.andi x v reducesTo_S8x64x256x256_S_d0_1_2_3 h_S_) main_v6 main_c_1
  let main_v8 : IVec S_ 1 := andi main_v3 main_v7
  let main_v9 : FVec F S8x64x256x256 .f32 := Host.absf main_arg2
  let main_cst_2 : FVec F S_ .f32 := constant S_ .f32 0x7F800000#32
  let main_v10 : FVec F S8x64x256x256 .f32 := broadcastInDim S8x64x256x256 ![] bcast_S_S8x64x256x256 main_cst_2
  let main_v11 : IVec S8x64x256x256 1 := cmpf .olt main_v9 main_v10
  let main_c_3 : IVec S_ 1 := constantI S_ 1 1#1
  let main_v12 : IVec S_ 1 := (fun x v => Host.reduce IntOp.andi x v reducesTo_S8x64x256x256_S_d0_1_2_3 h_S_) main_v11 main_c_3
  let main_v13 : IVec S_ 1 := andi main_v8 main_v12
  let main_v14 : FVec F S8x64x256x256 .f32 := Host.absf main_arg3
  let main_cst_4 : FVec F S_ .f32 := constant S_ .f32 0x7F800000#32
  let main_v15 : FVec F S8x64x256x256 .f32 := broadcastInDim S8x64x256x256 ![] bcast_S_S8x64x256x256 main_cst_4
  let main_v16 : IVec S8x64x256x256 1 := cmpf .olt main_v14 main_v15
  fn_part1 (F := F) main_v13 main_v16
-- ==== Kernel.lean ====
abbrev S8x64x256x256 : Shape := ⟨4, ![8, 64, 256, 256]⟩
abbrev S512x256x256 : Shape := ⟨3, ![512, 256, 256]⟩
abbrev S512x256x2x256x2 : Shape := ⟨5, ![512, 256, 2, 256, 2]⟩
abbrev S32x32x256 : Shape := ⟨3, ![32, 32, 256]⟩
abbrev S32x32x2x256x2 : Shape := ⟨5, ![32, 32, 2, 256, 2]⟩
abbrev S32x32x256x1 : Shape := ⟨4, ![32, 32, 256, 1]⟩
abbrev S32x32x256x2 : Shape := ⟨4, ![32, 32, 256, 2]⟩
abbrev S32x32x1x256x2 : Shape := ⟨5, ![32, 32, 1, 256, 2]⟩
abbrev S512x512x512 : Shape := ⟨3, ![512, 512, 512]⟩
abbrev S8x64x512x512 : Shape := ⟨4, ![8, 64, 512, 512]⟩

abbrev nBuf : Space → Nat
  | .hbm => 11
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S512x256x256, .f32⟩
  | .hbm, ⟨5, _⟩ => ⟨S512x256x256, .f32⟩
  | .hbm, ⟨6, _⟩ => ⟨S512x256x256, .f32⟩
  | .hbm, ⟨7, _⟩ => ⟨S512x256x256, .f32⟩
  | .hbm, ⟨8, _⟩ => ⟨S512x256x2x256x2, .f32⟩
  | .hbm, ⟨9, _⟩ => ⟨S512x512x512, .f32⟩
  | .hbm, ⟨10, _⟩ => ⟨S8x64x512x512, .f32⟩
  | .local _ .vmem, ⟨0, _⟩ => ⟨S32x32x256, .f32⟩
  | .local _ .vmem, ⟨1, _⟩ => ⟨S32x32x256, .f32⟩
  | .local _ .vmem, ⟨2, _⟩ => ⟨S32x32x256, .f32⟩
  | .local _ .vmem, ⟨3, _⟩ => ⟨S32x32x256, .f32⟩
  | .local _ .vmem, ⟨4, _⟩ => ⟨S32x32x256, .f32⟩
  | .local _ .vmem, ⟨5, _⟩ => ⟨S32x32x256, .f32⟩
  | .local _ .vmem, ⟨6, _⟩ => ⟨S32x32x256, .f32⟩
  | .local _ .vmem, ⟨7, _⟩ => ⟨S32x32x256, .f32⟩
  | .local _ .vmem, ⟨8, _⟩ => ⟨S32x32x2x256x2, .f32⟩
  | .local _ .vmem, ⟨9, _⟩ => ⟨S32x32x2x256x2, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x32x2x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x64x256x256_S512x256x256 : S8x64x256x256.ShapeCasts S512x256x256
  inb_S32x32x256_S32x32x256_0_0_0 : ∀ a, (![0, 0, 0] : Fin 3 → Nat) a + S32x32x256.size a ≤ S32x32x256.size a
  h_S32x32x256 : 0 < S32x32x256.numel
  shapeCasts_S32x32x256_S32x32x256 : S32x32x256.ShapeCasts S32x32x256
  shapeCasts_S32x32x256_S32x32x256x1 : S32x32x256.ShapeCasts S32x32x256x1
  concatenates_S32x32x256x1_S32x32x256x1_S32x32x256x2_d3 : Shape.Concatenates [S32x32x256x1, S32x32x256x1] S32x32x256x2 3
  shapeCasts_S32x32x256x2_S32x32x1x256x2 : S32x32x256x2.ShapeCasts S32x32x1x256x2
  concatenates_S32x32x1x256x2_S32x32x1x256x2_S32x32x2x256x2_d2 : Shape.Concatenates [S32x32x1x256x2, S32x32x1x256x2] S32x32x2x256x2 2
  inb_S32x32x2x256x2_S32x32x2x256x2_0_0_0_0_0 : ∀ a, (![0, 0, 0, 0, 0] : Fin 5 → Nat) a + S32x32x2x256x2.size a ≤ S32x32x2x256x2.size a
  h_S32x32x2x256x2 : 0 < S32x32x2x256x2.numel
  shapeCasts_S512x256x2x256x2_S512x512x512 : S512x256x2x256x2.ShapeCasts S512x512x512
  shapeCasts_S512x512x512_S8x64x512x512 : S512x512x512.ShapeCasts S8x64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x256.size a ≤ S512x256x256.size a
  hwx0_0 : ∀ i : grid0.Coords, EltTy.bits .f32 = 32 ∨ (Rect.block (s := S512x256x256) S32x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x256.size a ≤ S512x256x256.size a
  hwx0_1 : ∀ i : grid0.Coords, EltTy.bits .f32 = 32 ∨ (Rect.block (s := S512x256x256) S32x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x256.size a ≤ S512x256x256.size a
  hwx0_2 : ∀ i : grid0.Coords, EltTy.bits .f32 = 32 ∨ (Rect.block (s := S512x256x256) S32x32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32x256.size a ≤ S512x256x256.size a
  hwx0_3 : ∀ i : grid0.Coords, EltTy.bits .f32 = 32 ∨ (Rect.block (s := S512x256x256) S32x32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x32x2x256x2.size a ≤ S512x256x2x256x2.size a
  hwx0_4 : ∀ i : grid0.Coords, EltTy.bits .f32 = 32 ∨ (Rect.block (s := S512x256x2x256x2) S32x32x2x256x2.size (cc0_transform_4 i) (hinb0_4 i)).WholeWords (EltTy.packing .f32)

variable [Facts₀]

abbrev win0_0 : Pipeline.Window sig grid0 :=
  Pipeline.Window.ofSpec (Memref.whole main_v0) S32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x32x2x256x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x256x256x1 : Shape := ⟨5, ![8, 64, 256, 256, 1]⟩
abbrev S8x64x256x256x2 : Shape := ⟨5, ![8, 64, 256, 256, 2]⟩
abbrev S8x64x256x1x256x2 : Shape := ⟨6, ![8, 64, 256, 1, 256, 2]⟩
abbrev S8x64x256x2x256x2 : Shape := ⟨6, ![8, 64, 256, 2, 256, 2]⟩
abbrev S8x64x512x512 : Shape := ⟨4, ![8, 64, 512, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S8x64x256x256, .f32⟩
  | .hbm, ⟨5, _⟩ => ⟨S8x64x256x256, .f32⟩
  | .hbm, ⟨6, _⟩ => ⟨S8x64x256x256, .f32⟩
  | .hbm, ⟨7, _⟩ => ⟨S_, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S_, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S_, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S_, .f32⟩
  | .hbm, ⟨26, _⟩ => ⟨S8x64x256x256, .f32⟩
  | .hbm, ⟨27, _⟩ => ⟨S8x64x256x256, .f32⟩
  | .hbm, ⟨28, _⟩ => ⟨S8x64x256x256x1, .f32⟩
  | .hbm, ⟨29, _⟩ => ⟨S8x64x256x256x1, .f32⟩
  | .hbm, ⟨30, _⟩ => ⟨S8x64x256x256x2, .f32⟩
  | .hbm, ⟨31, _⟩ => ⟨S8x64x256x256x1, .f32⟩
  | .hbm, ⟨32, _⟩ => ⟨S8x64x256x256x1, .f32⟩
  | .hbm, ⟨33, _⟩ => ⟨S8x64x256x256x2, .f32⟩
  | .hbm, ⟨34, _⟩ => ⟨S8x64x256x1x256x2, .f32⟩
  | .hbm, ⟨35, _⟩ => ⟨S8x64x256x1x256x2, .f32⟩
  | .hbm, ⟨36, _⟩ => ⟨S8x64x256x2x256x2, .f32⟩
  | .hbm, ⟨37, _⟩ => ⟨S8x64x512x512, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S_S8x64x256x256 : S_.BroadcastsInDim S8x64x256x256 (![] : Fin 0 → Fin S8x64x256x256.rank)
  bcast_S8x64x256x256_S8x64x256x256x1_0_1_2_3 : S8x64x256x256.BroadcastsInDim S8x64x256x256x1 (![0, 1, 2, 3] : Fin 4 → Fin S8x64x256x256x1.rank)
  concatenates_S8x64x256x256x1_S8x64x256x256x1_S8x64x256x256x2_d4 : Shape.Concatenates [S8x64x256x256x1, S8x64x256x256x1] S8x64x256x256x2 4
  bcast_S8x64x256x256x2_S8x64x256x1x256x2_0_1_2_4_5 : S8x64x256x256x2.BroadcastsInDim S8x64x256x1x256x2 (![0, 1, 2, 4, 5] : Fin 5 → Fin S8x64x256x1x256x2.rank)
  concatenates_S8x64x256x1x256x2_S8x64x256x1x256x2_S8x64x256x2x256x2_d3 : Shape.Concatenates [S8x64x256x1x256x2, S8x64x256x1x256x2] S8x64x256x2x256x2 3
  shapeCasts_S8x64x256x2x256x2_S8x64x512x512 : S8x64x256x2x256x2.ShapeCasts S8x64x512x512

variable [Facts₀]

class Facts : Prop extends Facts₀ where

variable [Facts]
-- ==== Proof.HaarSpec.lean ====
/-
  The inverse Haar transform of four sub-band arrays, as one function.

  Each of the four arguments is an array [8, 64, 256, 256]; the result is [8, 64, 512, 512]. Output pixel
  (n, ch, 2h + di, 2w + dj) depends on the four sub-band values at (n, ch, h, w) only, and which of the four
  signed sums it is depends on the position (di, dj) inside the 2 x 2 cell:

      (0, 0):  half * (ll - lh - hl + hh)        (0, 1):  half * (ll - lh + hl - hh)
      (1, 0):  half * (ll + lh - hl - hh)        (1, 1):  half * (ll + lh + hl + hh)

  with every sum associated from the left, as both programs compute it. No algebraic law is used anywhere:
  the two programs build the same expression at every pixel and differ only in how they lay the pixels out,
  so the argument holds on the extended reals without any finiteness assumption.
-/
import Idealize.ShloMosaic.PureOps.Ideal
import Idealize.ShloMosaic.Lib.ValueIdx
import Idealize.ShloMosaic.Lib.ValueIdxRank6
import Idealize.ShloMosaic.Lib.Pipeline.Value

noncomputable section

namespace Cert.Haar

open Idealize.ShloMosaic Idealize.ShloMosaic.ValueIdx

/-- A sub-band array's shape. -/
abbrev SIn : Shape := ⟨4, ![8, 64, 256, 256]⟩
/-- The reconstructed array's shape. -/
abbrev SOut : Shape := ⟨4, ![8, 64, 512, 512]⟩

/-- The scale both programs multiply by: the value of the single-precision word for one half. -/
abbrev half : EReal := Ideal.ofBits .f32 0x3F000000#32

/-- The signed sum at position (di, dj) of a 2 x 2 cell, of the four sub-band values `a b c d`. -/
def quad (di dj : Nat) (a b c d : EReal) : EReal :=
  half * (if di = 0 then (if dj = 0 then a - b - c + d else a - b + c - d)
          else (if dj = 0 then a + b - c - d else a + b + c + d))

theorem quad_00 (a b c d : EReal) : quad 0 0 a b c d = half * (a - b - c + d) := by simp [quad]
theorem quad_01 (a b c d : EReal) : quad 0 1 a b c d = half * (a - b + c - d) := by simp [quad]
theorem quad_10 (a b c d : EReal) : quad 1 0 a b c d = half * (a + b - c - d) := by simp [quad]
theorem quad_11 (a b c d : EReal) : quad 1 1 a b c d = half * (a + b + c + d) := by simp [quad]

/-- The reconstruction: pixel `i` reads the sub-bands at half its row and half its column, and takes the
    signed sum its row and column parities select. -/
def G (x0 x1 x2 x3 : SIn.Idx → EReal) : SOut.Idx → EReal := fun i =>
  have h2 : (i 2).val < 512 := (i 2).isLt
  have h3 : (i 3).val < 512 := (i 3).isLt
  let k : SIn.Idx := ix4 (⟨(i 0).val, (i 0).isLt⟩ : Fin 8) (⟨(i 1).val, (i 1).isLt⟩ : Fin 64)
    (⟨(i 2).val / 2, by omega⟩ : Fin 256) (⟨(i 3).val / 2, by omega⟩ : Fin 256)
  quad ((i 2).val % 2) ((i 3).val % 2) (x0 k) (x1 k) (x2 k) (x3 k)

/-- The pixel at row `2h + di` and column `2w + dj`. -/
abbrev pixel (n : Fin 8) (ch : Fin 64) (h w : Fin 256) (di dj : Fin 2) : SOut.Idx :=
  ix4 n ch (⟨2 * h.val + di.val, by omega⟩ : Fin 512) (⟨2 * w.val + dj.val, by omega⟩ : Fin 512)

/-- Every pixel is at some position of some cell. -/
theorem exists_pixel (i : SOut.Idx) : ∃ (n : Fin 8) (ch : Fin 64) (h w : Fin 256) (di dj : Fin 2), i = pixel n ch h w di dj := by
  have h2 : (i 2).val < 512 := (i 2).isLt
  have h3 : (i 3).val < 512 := (i 3).isLt
  refine ⟨i 0, i 1, ⟨(i 2).val / 2, by omega⟩, ⟨(i 3).val / 2, by omega⟩, ⟨(i 2).val % 2, by omega⟩, ⟨(i 3).val % 2, by omega⟩, ?_⟩
  funext a
  apply Fin.ext
  match a with
  | ⟨0, _⟩ => rfl
  | ⟨1, _⟩ => rfl
  | ⟨2, _⟩ => show (i 2).val = 2 * ((i 2).val / 2) + (i 2).val % 2; omega
  | ⟨3, _⟩ => show (i 3).val = 2 * ((i 3).val / 2) + (i 3).val % 2; omega

/-- The reconstruction at a cell's position: the signed sum of the position, of the cell's sub-band values. -/
theorem G_pixel (x0 x1 x2 x3 : SIn.Idx → EReal) (n : Fin 8) (ch : Fin 64) (h w : Fin 256) (di dj : Fin 2) :
    G x0 x1 x2 x3 (pixel n ch h w di dj)
      = quad di.val dj.val (x0 (ix4 n ch h w)) (x1 (ix4 n ch h w)) (x2 (ix4 n ch h w)) (x3 (ix4 n ch h w)) := by
  have hd : di.val < 2 := di.isLt
  have he : dj.val < 2 := dj.isLt
  have ek : (ix4 (⟨n.val, n.isLt⟩ : Fin 8) (⟨ch.val, ch.isLt⟩ : Fin 64)
      (⟨(2 * h.val + di.val) / 2, by omega⟩ : Fin 256) (⟨(2 * w.val + dj.val) / 2, by omega⟩ : Fin 256) : SIn.Idx) = ix4 n ch h w := by
    funext a
    apply Fin.ext
    match a with
    | ⟨0, _⟩ => rfl
    | ⟨1, _⟩ => rfl
    | ⟨2, _⟩ => show (2 * h.val + di.val) / 2 = h.val; omega
    | ⟨3, _⟩ => show (2 * w.val + dj.val) / 2 = w.val; omega
  have e2 : (2 * h.val + di.val) % 2 = di.val := by omega
  have e3 : (2 * w.val + dj.val) % 2 = dj.val := by omega
  show quad ((2 * h.val + di.val) % 2) ((2 * w.val + dj.val) % 2) (x0 _) (x1 _) (x2 _) (x3 _) = _
  rw [e2, e3, ek]

end Cert.Haar

end
-- ==== Proof.KernelCell.lean ====
/-
  One grid step of the kernel, read at an index.

  The body loads a block [32, 32, 256] of each sub-band, forms the four signed sums of the blocks, and stores
  them interleaved as a block [32, 32, 2, 256, 2]: the last axis pairs the two sums of a row of the 2 x 2 cell
  (each sum gets a trailing axis of length one, and the two are joined along it), the middle axis of length two
  pairs the cell's two rows (each pair gets an axis of length one in third place, and the two are joined along
  it). So the stored block at (a, b, di, w, dj) is the signed sum of position (di, dj) of the four loaded
  values at (a, b, w).
-/
import proofs.«161246_j88734024335380_1_alg».proof.Proof.Gen.KernelIdeal.Skeleton
import proofs.«161246_j88734024335380_1_alg».proof.Proof.HaarSpec

noncomputable section

namespace Cert.KernelIdeal.Hand

open Cert.KernelIdeal Cert.KernelIdeal.Gen Idealize.ShloMosaic Idealize.ShloMosaic.ValueIdx Cert.Haar

section Layout
variable {α : Type}

/-- A block given a trailing axis of length one, read at (a, b, w, 0), is the block at (a, b, w). -/
theorem addLast_apply (x : S32x32x256.Idx → α) (h : S32x32x256.ShapeCasts S32x32x256x1) (a b : Fin 32) (w : Fin 256) :
    shapeCast S32x32x256x1 x h (ix4 a b w (0 : Fin 1)) = x (ix3 a b w) := by
  refine shapeCast_apply x h _ _ ?_
  rw [Shape.rowMajor_val_three, Shape.rowMajor_val_four]
  show (a.val * 32 + b.val) * 256 + w.val = ((a.val * 32 + b.val) * 256 + w.val) * 1 + 0
  omega

/-- Two such blocks joined along the trailing axis: position `dj` on it selects the block. -/
theorem joinLast_apply (p q : S32x32x256x1.Idx → α) (h : Shape.Concatenates [S32x32x256x1, S32x32x256x1] S32x32x256x2 3)
    (a b : Fin 32) (w : Fin 256) (dj : Fin 2) :
    concatenate S32x32x256x2 3 [⟨S32x32x256x1, p⟩, ⟨S32x32x256x1, q⟩] h (ix4 a b w dj)
      = if dj.val = 0 then p (ix4 a b w (0 : Fin 1)) else q (ix4 a b w (0 : Fin 1)) := by
  match dj with
  | ⟨0, _⟩ =>
    rw [if_pos rfl]
    exact concatenate_pair_apply_left 3 p q h _ rfl _ fun c => by
      match c with
      | ⟨0, _⟩ => rfl
      | ⟨1, _⟩ => rfl
      | ⟨2, _⟩ => rfl
      | ⟨3, _⟩ => rfl
  | ⟨1, _⟩ =>
    rw [if_neg Nat.one_ne_zero]
    exact concatenate_pair_apply_right 3 p q h _ rfl rfl _ (fun c hc => by
      match c with
      | ⟨0, _⟩ => rfl
      | ⟨1, _⟩ => rfl
      | ⟨2, _⟩ => rfl
      | ⟨3, _⟩ => exact absurd rfl hc) rfl

/-- A block [32, 32, 256, 2] given an axis of length one in third place, read at (a, b, 0, w, dj), is the block
    at (a, b, w, dj). -/
theorem addMid_apply (x : S32x32x256x2.Idx → α) (h : S32x32x256x2.ShapeCasts S32x32x1x256x2) (a b : Fin 32) (w : Fin 256) (dj : Fin 2) :
    shapeCast S32x32x1x256x2 x h (ix5 a b (0 : Fin 1) w dj) = x (ix4 a b w dj) := by
  refine shapeCast_apply x h _ _ ?_
  rw [Shape.rowMajor_val_four, Shape.rowMajor_val_five]
  show ((a.val * 32 + b.val) * 256 + w.val) * 2 + dj.val = (((a.val * 32 + b.val) * 1 + 0) * 256 + w.val) * 2 + dj.val
  omega

/-- Two such blocks joined along the third axis: position `di` on it selects the block. -/
theorem joinMid_apply (p q : S32x32x1x256x2.Idx → α) (h : Shape.Concatenates [S32x32x1x256x2, S32x32x1x256x2] S32x32x2x256x2 2)
    (a b : Fin 32) (di : Fin 2) (w : Fin 256) (dj : Fin 2) :
    concatenate S32x32x2x256x2 2 [⟨S32x32x1x256x2, p⟩, ⟨S32x32x1x256x2, q⟩] h (ix5 a b di w dj)
      = if di.val = 0 then p (ix5 a b (0 : Fin 1) w dj) else q (ix5 a b (0 : Fin 1) w dj) := by
  match di with
  | ⟨0, _⟩ =>
    rw [if_pos rfl]
    exact concatenate_pair_apply_left 2 p q h _ rfl _ fun c => by
      match c with
      | ⟨0, _⟩ => rfl
      | ⟨1, _⟩ => rfl
      | ⟨2, _⟩ => rfl
      | ⟨3, _⟩ => rfl
      | ⟨4, _⟩ => rfl
  | ⟨1, _⟩ =>
    rw [if_neg Nat.one_ne_zero]
    exact concatenate_pair_apply_right 2 p q h _ rfl rfl _ (fun c hc => by
      match c with
      | ⟨0, _⟩ => rfl
      | ⟨1, _⟩ => rfl
      | ⟨2, _⟩ => exact absurd rfl hc
      | ⟨3, _⟩ => rfl
      | ⟨4, _⟩ => rfl) rfl

end Layout

/-- What the body stores, at (a, b, di, w, dj): the signed sum of position (di, dj) of the four loaded values at
    (a, b, w). -/
theorem stored_apply (v0 v2 v4 v6 : Vec Ideal S32x32x256 .f32) (a b : Fin 32) (di : Fin 2) (w : Fin 256) (dj : Fin 2) :
    k0_pay1 (F := Ideal) v0 v2 v4 v6 (ix5 a b di w dj)
      = quad di.val dj.val (v0 (ix3 a b w)) (v2 (ix3 a b w)) (v4 (ix3 a b w)) (v6 (ix3 a b w)) := by
  unfold k0_pay1
  rw [joinMid_apply]
  match di, dj with
  | ⟨0, _⟩, ⟨0, _⟩ => rw [if_pos rfl, addMid_apply, joinLast_apply, if_pos rfl, addLast_apply, quad_00]; simp only [shapeCast_self]; rfl
  | ⟨0, _⟩, ⟨1, _⟩ => rw [if_pos rfl, addMid_apply, joinLast_apply, if_neg Nat.one_ne_zero, addLast_apply, quad_01]; simp only [shapeCast_self]; rfl
  | ⟨1, _⟩, ⟨0, _⟩ => rw [if_neg Nat.one_ne_zero, addMid_apply, joinLast_apply, if_pos rfl, addLast_apply, quad_10]; simp only [shapeCast_self]; rfl
  | ⟨1, _⟩, ⟨1, _⟩ => rw [if_neg Nat.one_ne_zero, addMid_apply, joinLast_apply, if_neg Nat.one_ne_zero, addLast_apply, quad_11]; simp only [shapeCast_self]; rfl

/-- The interleaved array [512, 256, 2, 256, 2] of four arrays [512, 256, 256]: at (r, h, di, w, dj) the signed sum
    of position (di, dj) of their values at (r, h, w). -/
def cells (y0 y1 y2 y3 : S512x256x256.Idx → EReal) : S512x256x2x256x2.Idx → EReal := fun j =>
  let k : S512x256x256.Idx := ix3 (⟨(j 0).val, (j 0).isLt⟩ : Fin 512) (⟨(j 1).val, (j 1).isLt⟩ : Fin 256) (⟨(j 3).val, (j 3).isLt⟩ : Fin 256)
  quad (j 2).val (j 4).val (y0 k) (y1 k) (y2 k) (y3 k)

theorem cells_apply (y0 y1 y2 y3 : S512x256x256.Idx → EReal) (r : Fin 512) (h : Fin 256) (di : Fin 2) (w : Fin 256) (dj : Fin 2) :
    cells y0 y1 y2 y3 (ix5 r h di w dj) = quad di.val dj.val (y0 (ix3 r h w)) (y1 (ix3 r h w)) (y2 (ix3 r h w)) (y3 (ix3 r h w)) := rfl

end Cert.KernelIdeal.Hand

end
-- ==== Proof.KernelArray.lean ====
/-
  The array the grid leaves: every block written is a block of ONE function of the four staged arrays.

  The grid is 16 x 8. At point (p, q) each sub-band window is block (p, q, 0) of its array [512, 256, 256], blocks
  of [32, 32, 256], and the output window is block (p, q, 0, 0, 0) of the array [512, 256, 2, 256, 2], blocks of
  [32, 32, 2, 256, 2]. An element of a block sits in the array at block index times block extent plus its own
  coordinate, axis by axis, so element (a, b, di, w, dj) of the output block lands at (32 p + a, 32 q + b, di, w, dj)
  and is computed from the staged arrays at (32 p + a, 32 q + b, w): the written array, at (r, h, di, w, dj), is the
  signed sum of position (di, dj) of the staged arrays at (r, h, w). The 128 blocks tile the array: index
  (r, h, ..) is in the block of the point with p = r / 32 and q = h / 32.
-/
import proofs.«161246_j88734024335380_1_alg».proof.Proof.Gen.KernelIdeal.Frame
import proofs.«161246_j88734024335380_1_alg».proof.Proof.KernelCell
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Haar
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- One grid point, over plain variables: if the four loaded blocks are blocks (p, q, 0) of four arrays, what the
    body stores at `j` is `cells` of the arrays at the array index `k` under `j` in block (p, q, 0, 0, 0). -/
theorem point_eq (x0 x1 x2 x3 : Vec Ideal S32x32x256 .f32) (y0 y1 y2 y3 : S512x256x256.Idx → EReal)
    (p q : Nat) (hp : p ≤ 15) (hq : q ≤ 7)
    (h0 : ∀ (a b : Fin 32) (w : Fin 256), x0 (ix3 a b w) = y0 (ix3 (⟨p * 32 + a.val, by omega⟩ : Fin 512) (⟨q * 32 + b.val, by omega⟩ : Fin 256) w))
    (h1 : ∀ (a b : Fin 32) (w : Fin 256), x1 (ix3 a b w) = y1 (ix3 (⟨p * 32 + a.val, by omega⟩ : Fin 512) (⟨q * 32 + b.val, by omega⟩ : Fin 256) w))
    (h2 : ∀ (a b : Fin 32) (w : Fin 256), x2 (ix3 a b w) = y2 (ix3 (⟨p * 32 + a.val, by omega⟩ : Fin 512) (⟨q * 32 + b.val, by omega⟩ : Fin 256) w))
    (h3 : ∀ (a b : Fin 32) (w : Fin 256), x3 (ix3 a b w) = y3 (ix3 (⟨p * 32 + a.val, by omega⟩ : Fin 512) (⟨q * 32 + b.val, by omega⟩ : Fin 256) w))
    (j : S32x32x2x256x2.Idx) (k : S512x256x2x256x2.Idx)
    (hk0 : (k 0).val = p * 32 + (j 0).val) (hk1 : (k 1).val = q * 32 + (j 1).val)
    (hk2 : (k 2).val = (j 2).val) (hk3 : (k 3).val = (j 3).val) (hk4 : (k 4).val = (j 4).val) :
    k0_pay1 (F := Ideal) x0 x1 x2 x3 j = cells y0 y1 y2 y3 k := by
  obtain ⟨a, b, di, w, dj, rfl⟩ : ∃ (a b : Fin 32) (di : Fin 2) (w : Fin 256) (dj : Fin 2), j = ix5 a b di w dj :=
    ⟨j 0, j 1, j 2, j 3, j 4, eq_ix5 j⟩
  have ek : k = ix5 (⟨p * 32 + a.val, by omega⟩ : Fin 512) (⟨q * 32 + b.val, by omega⟩ : Fin 256) di w dj := by
    funext ax
    apply Fin.ext
    match ax with
    | ⟨0, _⟩ => exact hk0
    | ⟨1, _⟩ => exact hk1
    | ⟨2, _⟩ => exact hk2
    | ⟨3, _⟩ => exact hk3
    | ⟨4, _⟩ => exact hk4
  rw [stored_apply, ek, cells_apply, h0, h1, h2, h3]

/-- The printed index maps over the grid: every sub-band window moves with the output window on the two leading
    axes and stays at block 0 on the others; the output's block indices stay in their ranges. -/
theorem idx_facts : ∀ t : Fin cfg0.N,
    win0_0.index t (0 : Fin 3) = win0_4.index t (0 : Fin 5) ∧ win0_0.index t (1 : Fin 3) = win0_4.index t (1 : Fin 5) ∧ win0_0.index t (2 : Fin 3) = 0
    ∧ win0_1.index t (0 : Fin 3) = win0_4.index t (0 : Fin 5) ∧ win0_1.index t (1 : Fin 3) = win0_4.index t (1 : Fin 5) ∧ win0_1.index t (2 : Fin 3) = 0
    ∧ win0_2.index t (0 : Fin 3) = win0_4.index t (0 : Fin 5) ∧ win0_2.index t (1 : Fin 3) = win0_4.index t (1 : Fin 5) ∧ win0_2.index t (2 : Fin 3) = 0
    ∧ win0_3.index t (0 : Fin 3) = win0_4.index t (0 : Fin 5) ∧ win0_3.index t (1 : Fin 3) = win0_4.index t (1 : Fin 5) ∧ win0_3.index t (2 : Fin 3) = 0
    ∧ win0_4.index t (2 : Fin 5) = 0 ∧ win0_4.index t (3 : Fin 5) = 0 ∧ win0_4.index t (4 : Fin 5) = 0
    ∧ win0_4.index t (0 : Fin 5) ≤ 15 ∧ win0_4.index t (1 : Fin 5) ≤ 7 :=
  (by decide +kernel : ∀ t : Fin grid0.N, _)

/-- Every block of the output array is some point's. -/
theorem idx_onto : ∀ (q0 : Fin 16) (q1 : Fin 8), ∃ t : Fin cfg0.N, win0_4.index t = ![q0.val, q1.val, 0, 0, 0] :=
  (by decide +kernel : ∀ (q0 : Fin 16) (q1 : Fin 8), ∃ t : Fin grid0.N, win0_4.index t = ![q0.val, q1.val, 0, 0, 0])

/-- Sub-band window 0's block at a point, read at (a, b, w): the staged array at (32 p + a, 32 q + b, w). -/
theorem in0_apply (c : Dev nD) (t : Fin cfg0.N) (p q : Nat) (hp : p ≤ 15) (hq : q ≤ 7)
    (e0 : win0_0.index t (0 : Fin 3) = p) (e1 : win0_0.index t (1 : Fin 3) = q) (e2 : win0_0.index t (2 : Fin 3) = 0)
    (a b : Fin 32) (w : Fin 256) :
    (iblk m c 0 t : Vec Ideal S32x32x256 .f32) (ix3 a b w)
      = (V m c main_v0 : S512x256x256.Idx → EReal) (ix3 (⟨p * 32 + a.val, by omega⟩ : Fin 512) (⟨q * 32 + b.val, by omega⟩ : Fin 256) w) := by
  show V m c main_v0 (((cfg0.win 0).blk t).view.emb (ix3 a b w)) = _
  have e : ((cfg0.win 0).blk t).view.emb (ix3 a b w) = (ix3 (⟨p * 32 + a.val, by omega⟩ : Fin 512) (⟨q * 32 + b.val, by omega⟩ : Fin 256) w : S512x256x256.Idx) := by
    funext ax
    apply Fin.ext
    match ax with
    | ⟨0, _⟩ => show win0_0.index t (0 : Fin 3) * 32 + 1 * a.val = p * 32 + a.val; omega
    | ⟨1, _⟩ => show win0_0.index t (1 : Fin 3) * 32 + 1 * b.val = q * 32 + b.val; omega
    | ⟨2, _⟩ => show win0_0.index t (2 : Fin 3) * 256 + 1 * w.val = w.val; omega
  rw [e]

theorem in1_apply (c : Dev nD) (t : Fin cfg0.N) (p q : Nat) (hp : p ≤ 15) (hq : q ≤ 7)
    (e0 : win0_1.index t (0 : Fin 3) = p) (e1 : win0_1.index t (1 : Fin 3) = q) (e2 : win0_1.index t (2 : Fin 3) = 0)
    (a b : Fin 32) (w : Fin 256) :
    (iblk m c 1 t : Vec Ideal S32x32x256 .f32) (ix3 a b w)
      = (V m c main_v1 : S512x256x256.Idx → EReal) (ix3 (⟨p * 32 + a.val, by omega⟩ : Fin 512) (⟨q * 32 + b.val, by omega⟩ : Fin 256) w) := by
  show V m c main_v1 (((cfg0.win 1).blk t).view.emb (ix3 a b w)) = _
  have e : ((cfg0.win 1).blk t).view.emb (ix3 a b w) = (ix3 (⟨p * 32 + a.val, by omega⟩ : Fin 512) (⟨q * 32 + b.val, by omega⟩ : Fin 256) w : S512x256x256.Idx) := by
    funext ax
    apply Fin.ext
    match ax with
    | ⟨0, _⟩ => show win0_1.index t (0 : Fin 3) * 32 + 1 * a.val = p * 32 + a.val; omega
    | ⟨1, _⟩ => show win0_1.index t (1 : Fin 3) * 32 + 1 * b.val = q * 32 + b.val; omega
    | ⟨2, _⟩ => show win0_1.index t (2 : Fin 3) * 256 + 1 * w.val = w.val; omega
  rw [e]

theorem in2_apply (c : Dev nD) (t : Fin cfg0.N) (p q : Nat) (hp : p ≤ 15) (hq : q ≤ 7)
    (e0 : win0_2.index t (0 : Fin 3) = p) (e1 : win0_2.index t (1 : Fin 3) = q) (e2 : win0_2.index t (2 : Fin 3) = 0)
    (a b : Fin 32) (w : Fin 256) :
    (iblk m c 2 t : Vec Ideal S32x32x256 .f32) (ix3 a b w)
      = (V m c main_v2 : S512x256x256.Idx → EReal) (ix3 (⟨p * 32 + a.val, by omega⟩ : Fin 512) (⟨q * 32 + b.val, by omega⟩ : Fin 256) w) := by
  show V m c main_v2 (((cfg0.win 2).blk t).view.emb (ix3 a b w)) = _
  have e : ((cfg0.win 2).blk t).view.emb (ix3 a b w) = (ix3 (⟨p * 32 + a.val, by omega⟩ : Fin 512) (⟨q * 32 + b.val, by omega⟩ : Fin 256) w : S512x256x256.Idx) := by
    funext ax
    apply Fin.ext
    match ax with
    | ⟨0, _⟩ => show win0_2.index t (0 : Fin 3) * 32 + 1 * a.val = p * 32 + a.val; omega
    | ⟨1, _⟩ => show win0_2.index t (1 : Fin 3) * 32 + 1 * b.val = q * 32 + b.val; omega
    | ⟨2, _⟩ => show win0_2.index t (2 : Fin 3) * 256 + 1 * w.val = w.val; omega
  rw [e]

theorem in3_apply (c : Dev nD) (t : Fin cfg0.N) (p q : Nat) (hp : p ≤ 15) (hq : q ≤ 7)
    (e0 : win0_3.index t (0 : Fin 3) = p) (e1 : win0_3.index t (1 : Fin 3) = q) (e2 : win0_3.index t (2 : Fin 3) = 0)
    (a b : Fin 32) (w : Fin 256) :
    (iblk m c 3 t : Vec Ideal S32x32x256 .f32) (ix3 a b w)
      = (V m c main_v3 : S512x256x256.Idx → EReal) (ix3 (⟨p * 32 + a.val, by omega⟩ : Fin 512) (⟨q * 32 + b.val, by omega⟩ : Fin 256) w) := by
  show V m c main_v3 (((cfg0.win 3).blk t).view.emb (ix3 a b w)) = _
  have e : ((cfg0.win 3).blk t).view.emb (ix3 a b w) = (ix3 (⟨p * 32 + a.val, by omega⟩ : Fin 512) (⟨q * 32 + b.val, by omega⟩ : Fin 256) w : S512x256x256.Idx) := by
    funext ax
    apply Fin.ext
    match ax with
    | ⟨0, _⟩ => show win0_3.index t (0 : Fin 3) * 32 + 1 * a.val = p * 32 + a.val; omega
    | ⟨1, _⟩ => show win0_3.index t (1 : Fin 3) * 32 + 1 * b.val = q * 32 + b.val; omega
    | ⟨2, _⟩ => show win0_3.index t (2 : Fin 3) * 256 + 1 * w.val = w.val; omega
  rw [e]

/-- What point `t` writes back is block `t` of `cells` of the staged arrays. -/
theorem flushed_eq (c : Dev nD) (t : Fin cfg0.N) :
    (dats m 0 c).flushed 4 t = ((cfg0.win 4).blk t).view.read (Elt Ideal)
      (cells (V m c main_v0) (V m c main_v1) (V m c main_v2) (V m c main_v3)) := by
  show (cfg0.win 4).cut (grid0.coords t) ((dats m 0 c).after 4 t) = _
  rw [after0_4]
  unfold out0_4
  rw [View.canon_unit_zero hz5]
  simp only [View.ld_unit_zero (S := S32x32x256) hz3]
  obtain ⟨e00, e01, e02, e10, e11, e12, e20, e21, e22, e30, e31, e32, f2, f3, f4, b0, b1⟩ := idx_facts t
  funext j
  exact point_eq (iblk m c 0 t) (iblk m c 1 t) (iblk m c 2 t) (iblk m c 3 t)
    (V m c main_v0) (V m c main_v1) (V m c main_v2) (V m c main_v3)
    (win0_4.index t (0 : Fin 5)) (win0_4.index t (1 : Fin 5)) b0 b1
    (in0_apply m c t _ _ b0 b1 e00 e01 e02) (in1_apply m c t _ _ b0 b1 e10 e11 e12)
    (in2_apply m c t _ _ b0 b1 e20 e21 e22) (in3_apply m c t _ _ b0 b1 e30 e31 e32)
    j (((cfg0.win 4).blk t).view.emb j)
    (by show win0_4.index t (0 : Fin 5) * 32 + 1 * (j 0).val = _; omega)
    (by show win0_4.index t (1 : Fin 5) * 32 + 1 * (j 1).val = _; omega)
    (by show win0_4.index t (2 : Fin 5) * 2 + 1 * (j 2).val = _; omega)
    (by show win0_4.index t (3 : Fin 5) * 256 + 1 * (j 3).val = _; omega)
    (by show win0_4.index t (4 : Fin 5) * 2 + 1 * (j 4).val = _; omega)

/-- An index of the output array is in point `t`'s block iff each coordinate is in the block's range on its axis. -/
theorem mem_blk (t : Fin cfg0.N) (i : S512x256x2x256x2.Idx) :
    i ∈ ((cfg0.win 4).blk t).view.set ↔ ∀ a : Fin 5, win0_4.index t a * S32x32x2x256x2.size a ≤ (i a).val ∧ (i a).val < win0_4.index t a * S32x32x2x256x2.size a + S32x32x2x256x2.size a := by
  show i ∈ ((View.whole main_v4).slice (win0_4.rect t)).set ↔ _
  rw [View.set_slice_whole, Rect.mem_set_unit]
  exact Iff.rfl

/-- The blocks tile the array: every index is in the block of the point with p = r / 32, q = h / 32. -/
theorem cover (i : S512x256x2x256x2.Idx) : ∃ t : Fin cfg0.N, (cfg0.win 4).flush t = true ∧ i ∈ ((cfg0.win 4).blk t).view.set := by
  have hi0 : (i 0).val < 512 := (i 0).isLt
  have hi1 : (i 1).val < 256 := (i 1).isLt
  have hi2 : (i 2).val < 2 := (i 2).isLt
  have hi3 : (i 3).val < 256 := (i 3).isLt
  have hi4 : (i 4).val < 2 := (i 4).isLt
  obtain ⟨t, ht⟩ := idx_onto ⟨(i 0).val / 32, by omega⟩ ⟨(i 1).val / 32, by omega⟩
  have q0 : win0_4.index t (0 : Fin 5) = (i 0).val / 32 := congrFun ht 0
  have q1 : win0_4.index t (1 : Fin 5) = (i 1).val / 32 := congrFun ht 1
  have q2 : win0_4.index t (2 : Fin 5) = 0 := congrFun ht 2
  have q3 : win0_4.index t (3 : Fin 5) = 0 := congrFun ht 3
  have q4 : win0_4.index t (4 : Fin 5) = 0 := congrFun ht 4
  refine ⟨t, flush0_4 t, ?_⟩
  rw [mem_blk]
  intro a
  match a with
  | ⟨0, _⟩ => show win0_4.index t (0 : Fin 5) * 32 ≤ (i 0).val ∧ (i 0).val < win0_4.index t (0 : Fin 5) * 32 + 32; omega
  | ⟨1, _⟩ => show win0_4.index t (1 : Fin 5) * 32 ≤ (i 1).val ∧ (i 1).val < win0_4.index t (1 : Fin 5) * 32 + 32; omega
  | ⟨2, _⟩ => show win0_4.index t (2 : Fin 5) * 2 ≤ (i 2).val ∧ (i 2).val < win0_4.index t (2 : Fin 5) * 2 + 2; omega
  | ⟨3, _⟩ => show win0_4.index t (3 : Fin 5) * 256 ≤ (i 3).val ∧ (i 3).val < win0_4.index t (3 : Fin 5) * 256 + 256; omega
  | ⟨4, _⟩ => show win0_4.index t (4 : Fin 5) * 2 ≤ (i 4).val ∧ (i 4).val < win0_4.index t (4 : Fin 5) * 2 + 2; omega

/-- The output array after the grid is `cells` of the staged arrays. -/
theorem final (c : Dev nD) : (dats m 0 c).arrAt 4 cfg0.N
    = cells (V m c main_v0) (V m c main_v1) (V m c main_v2) (V m c main_v3) :=
  (dats m 0 c).arrAt_eq_of_cover 4 _ (fun t _ => flushed_eq m c t) (cover)

end Cert.KernelIdeal.Hand

end
-- ==== Proof.KernelLayout.lean ====
/-
  The host's free reshapes around the grid, read at a pixel.

  Before the grid each sub-band [8, 64, 256, 256] is flattened to [512, 256, 256]: position (n, ch, h, w) becomes
  (64 n + ch, h, w). After it the array [512, 256, 2, 256, 2] is flattened to [512, 512, 512] and then unflattened to
  [8, 64, 512, 512]. Each step keeps row-major position, and the positions of (64 n + ch, h, di, w, dj),
  (64 n + ch, 2h + di, 2w + dj) and (n, ch, 2h + di, 2w + dj) in the three shapes are the same number. So the
  program's result at the pixel of (n, ch, h, di, w, dj) is the interleaved array at (64 n + ch, h, di, w, dj), which is
  the signed sum of position (di, dj) of the flattened sub-bands at (64 n + ch, h, w), that is of the sub-bands
  themselves at (n, ch, h, w).
-/
import proofs.«161246_j88734024335380_1_alg».proof.Proof.KernelCell

noncomputable section

namespace Cert.KernelIdeal.Hand

open Cert.KernelIdeal Cert.KernelIdeal.Gen Idealize.ShloMosaic Idealize.ShloMosaic.ValueIdx Cert.Haar

section Layout
variable {α : Type}

/-- A sub-band flattened to [512, 256, 256], read at (64 n + ch, h, w). -/
theorem flattenIn_apply (x : S8x64x256x256.Idx → α) (hs : S8x64x256x256.ShapeCasts S512x256x256)
    (n : Fin 8) (ch : Fin 64) (h w : Fin 256) :
    shapeCast S512x256x256 x hs (ix3 (⟨n.val * 64 + ch.val, by omega⟩ : Fin 512) h w) = x (ix4 n ch h w) := by
  refine shapeCast_apply x hs _ _ ?_
  rw [Shape.rowMajor_val_four, Shape.rowMajor_val_three]
  show ((n.val * 64 + ch.val) * 256 + h.val) * 256 + w.val = ((n.val * 64 + ch.val) * 256 + h.val) * 256 + w.val
  rfl

/-- The interleaved array flattened to [512, 512, 512], read at (r, 2h + di, 2w + dj). -/
theorem mergeCell_apply (z : S512x256x2x256x2.Idx → α) (hs : S512x256x2x256x2.ShapeCasts S512x512x512)
    (r : Fin 512) (h w : Fin 256) (di dj : Fin 2) :
    shapeCast S512x512x512 z hs (ix3 r (⟨2 * h.val + di.val, by omega⟩ : Fin 512) (⟨2 * w.val + dj.val, by omega⟩ : Fin 512))
      = z (ix5 r h di w dj) := by
  refine shapeCast_apply z hs _ _ ?_
  rw [Shape.rowMajor_val_five, Shape.rowMajor_val_three]
  show (((r.val * 256 + h.val) * 2 + di.val) * 256 + w.val) * 2 + dj.val
    = (r.val * 512 + (2 * h.val + di.val)) * 512 + (2 * w.val + dj.val)
  have := di.isLt
  have := dj.isLt
  omega

/-- The array [512, 512, 512] unflattened to [8, 64, 512, 512], read at (n, ch, y, x). -/
theorem splitLead_apply (u : S512x512x512.Idx → α) (hs : S512x512x512.ShapeCasts S8x64x512x512)
    (n : Fin 8) (ch : Fin 64) (y x : Fin 512) :
    shapeCast S8x64x512x512 u hs (ix4 n ch y x) = u (ix3 (⟨n.val * 64 + ch.val, by omega⟩ : Fin 512) y x) := by
  refine shapeCast_apply u hs _ _ ?_
  rw [Shape.rowMajor_val_three, Shape.rowMajor_val_four]
  show ((n.val * 64 + ch.val) * 512 + y.val) * 512 + x.val = ((n.val * 64 + ch.val) * 512 + y.val) * 512 + x.val
  rfl

end Layout

/-- The program's result as a function of its arguments: flatten each sub-band, interleave, flatten, unflatten. -/
def result (x0 x1 x2 x3 : S8x64x256x256.Idx → EReal) : S8x64x512x512.Idx → EReal :=
  shapeCast S8x64x512x512
    (shapeCast S512x512x512
      (cells (shapeCast S512x256x256 x0 Facts₀.shapeCasts_S8x64x256x256_S512x256x256)
        (shapeCast S512x256x256 x1 Facts₀.shapeCasts_S8x64x256x256_S512x256x256)
        (shapeCast S512x256x256 x2 Facts₀.shapeCasts_S8x64x256x256_S512x256x256)
        (shapeCast S512x256x256 x3 Facts₀.shapeCasts_S8x64x256x256_S512x256x256))
      Facts₀.shapeCasts_S512x256x2x256x2_S512x512x512)
    Facts₀.shapeCasts_S512x512x512_S8x64x512x512

/-- The program's result at a pixel: the signed sum of the pixel's position, of the arguments at its cell. -/
theorem result_pixel (x0 x1 x2 x3 : S8x64x256x256.Idx → EReal) (n : Fin 8) (ch : Fin 64) (h w : Fin 256) (di dj : Fin 2) :
    result x0 x1 x2 x3 (pixel n ch h w di dj)
      = quad di.val dj.val (x0 (ix4 n ch h w)) (x1 (ix4 n ch h w)) (x2 (ix4 n ch h w)) (x3 (ix4 n ch h w)) := by
  unfold result
  rw [splitLead_apply, mergeCell_apply, cells_apply, flattenIn_apply, flattenIn_apply, flattenIn_apply, flattenIn_apply]

/-- The program's result is the reconstruction `G` of its arguments. -/
theorem result_eq (x0 x1 x2 x3 : S8x64x256x256.Idx → EReal) : result x0 x1 x2 x3 = G x0 x1 x2 x3 := by
  funext i
  obtain ⟨n, ch, h, w, di, dj, rfl⟩ := exists_pixel i
  rw [result_pixel, G_pixel]

end Cert.KernelIdeal.Hand

end
-- ==== Proof.KernelRun.lean ====
/-
  The program's run, read: every weakly fair execution ends with the result array at the reconstruction of the
  four arguments, and the arguments unchanged.

  The frame run leaves the grid's output array at what the blocks-to-array argument computes and every other
  buffer at what the host lines after the grid compute from it. Those lines flatten and unflatten the output
  array; the arrays the grid staged are the arguments flattened by the host lines before it. Put together, the
  result buffer holds `result` of the arguments, which is `G` of them.
-/
import proofs.«161246_j88734024335380_1_alg».proof.Proof.KernelArray
import proofs.«161246_j88734024335380_1_alg».proof.Proof.KernelLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Haar
open Idealize.ShloMosaic.Pipeline (Dat)

variable (m : (ℓ : Loc nD τ sig) → Buf (Elt Ideal) ℓ) (ρ : Dev nD → PrngReg)

/-- The array window 0 stages is the first argument flattened by the host line before the grid. -/
theorem staged0 (c : Dev nD) : (V m c main_v0 : S512x256x256.Idx → EReal)
    = shapeCast S512x256x256 (m ((c : Thread nD τ).loc main_arg0)) Facts₀.shapeCasts_S8x64x256x256_S512x256x256 := by
  show StableHlo.after hostOps0 (fun b => m (c, b)) (Proc.devRef .tc main_v0) = _
  after_results
  rfl
theorem staged1 (c : Dev nD) : (V m c main_v1 : S512x256x256.Idx → EReal)
    = shapeCast S512x256x256 (m ((c : Thread nD τ).loc main_arg1)) Facts₀.shapeCasts_S8x64x256x256_S512x256x256 := by
  show StableHlo.after hostOps0 (fun b => m (c, b)) (Proc.devRef .tc main_v1) = _
  after_results
  rfl
theorem staged2 (c : Dev nD) : (V m c main_v2 : S512x256x256.Idx → EReal)
    = shapeCast S512x256x256 (m ((c : Thread nD τ).loc main_arg2)) Facts₀.shapeCasts_S8x64x256x256_S512x256x256 := by
  show StableHlo.after hostOps0 (fun b => m (c, b)) (Proc.devRef .tc main_v2) = _
  after_results
  rfl
theorem staged3 (c : Dev nD) : (V m c main_v3 : S512x256x256.Idx → EReal)
    = shapeCast S512x256x256 (m ((c : Thread nD τ).loc main_arg3)) Facts₀.shapeCasts_S8x64x256x256_S512x256x256 := by
  show StableHlo.after hostOps0 (fun b => m (c, b)) (Proc.devRef .tc main_v3) = _
  after_results
  rfl

/-- What the host lines after the grid leave in the result buffer: the grid's output array flattened and unflattened. -/
theorem tail_eq (c : Dev nD) :
    Pipeline.afterTail₀ cfgs (dats m) 0 (V0 m) [hostOps1] c main_v6
      = shapeCast S8x64x512x512
          (shapeCast S512x512x512 ((dats m 0 c).arrAt 4 cfg0.N : S512x256x2x256x2.Idx → EReal) Facts₀.shapeCasts_S512x256x2x256x2_S512x512x512)
          Facts₀.shapeCasts_S512x512x512_S8x64x512x512 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = (dats m 0 c).arrAt 4 cfg0.N :=
    Pipeline.withArrays_arr spec0 launch0.win.arr_inj c (V0 m c) (fun w => (dats m 0 c).arrAt w cfg0.N) 4
  rw [e]
  rfl

/-- What the result buffer holds after the run: the reconstruction of the four arguments. -/
theorem result_buffer (c : Dev nD) :
    Pipeline.afterTail₀ cfgs (dats m) 0 (V0 m) [hostOps1] c main_v6
      = G (m ((c : Thread nD τ).loc main_arg0)) (m ((c : Thread nD τ).loc main_arg1))
          (m ((c : Thread nD τ).loc main_arg2)) (m ((c : Thread nD τ).loc main_arg3)) := by
  rw [tail_eq, final, staged0, staged1, staged2, staged3]
  exact result_eq _ _ _ _

/-- The run: the result array ends at the reconstruction of the arguments, which end unchanged. -/
theorem run : θ_run defs (onTc (τ := τ) (main (F := Ideal))) ⟨m, fun _ => 0, ρ⟩ fun r => ∀ c : Dev nD,
      r.2.mem ((c.tc : Thread nD τ).loc main_v6)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_buffer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefCell.lean ====
/-
  The reference, read at a pixel.

  The reference forms the four signed sums over whole arrays [8, 64, 256, 256], gives each a trailing axis of
  length one and joins the two sums of a cell row along it (arrays [8, 64, 256, 256, 2]), gives each of the two
  results an axis of length one in fourth place and joins them along it (an array [8, 64, 256, 2, 256, 2]), and
  flattens that to [8, 64, 512, 512]. Flattening keeps row-major position, and the position of
  (n, ch, h, di, w, dj) in the six-axis array is that of (n, ch, 2h + di, 2w + dj) in the result: so the result at
  that pixel is the signed sum of position (di, dj) of the four arguments at (n, ch, h, w).
-/
import proofs.«161246_j88734024335380_1_alg».proof.Proof.Gen.ReferenceIdeal.Read
import proofs.«161246_j88734024335380_1_alg».proof.Proof.HaarSpec

noncomputable section

namespace Cert.ReferenceIdeal.Hand

open Cert.ReferenceIdeal Cert.ReferenceIdeal.Gen Cert.ReferenceIdeal.Read
open Idealize.ShloMosaic Idealize.ShloMosaic.ValueIdx Cert.Haar

section Layout
variable {α : Type}

/-- Two arrays with a trailing axis of length one joined along it: position `dj` selects the array. -/
theorem joinLast_apply (p q : S8x64x256x256x1.Idx → α) (hc : Shape.Concatenates [S8x64x256x256x1, S8x64x256x256x1] S8x64x256x256x2 4)
    (n : Fin 8) (ch : Fin 64) (h w : Fin 256) (dj : Fin 2) :
    concatenate S8x64x256x256x2 4 [⟨S8x64x256x256x1, p⟩, ⟨S8x64x256x256x1, q⟩] hc (ix5 n ch h w dj)
      = if dj.val = 0 then p (ix5 n ch h w (0 : Fin 1)) else q (ix5 n ch h w (0 : Fin 1)) := by
  match dj with
  | ⟨0, _⟩ =>
    rw [if_pos rfl]
    exact concatenate_pair_apply_left 4 p q hc _ rfl _ fun c => by
      match c with
      | ⟨0, _⟩ => rfl
      | ⟨1, _⟩ => rfl
      | ⟨2, _⟩ => rfl
      | ⟨3, _⟩ => rfl
      | ⟨4, _⟩ => rfl
  | ⟨1, _⟩ =>
    rw [if_neg Nat.one_ne_zero]
    exact concatenate_pair_apply_right 4 p q hc _ rfl rfl _ (fun c hne => by
      match c with
      | ⟨0, _⟩ => rfl
      | ⟨1, _⟩ => rfl
      | ⟨2, _⟩ => rfl
      | ⟨3, _⟩ => rfl
      | ⟨4, _⟩ => exact absurd rfl hne) rfl

/-- Two arrays with an axis of length one in fourth place joined along it: position `di` selects the array. -/
theorem joinMid_apply (p q : S8x64x256x1x256x2.Idx → α) (hc : Shape.Concatenates [S8x64x256x1x256x2, S8x64x256x1x256x2] S8x64x256x2x256x2 3)
    (n : Fin 8) (ch : Fin 64) (h : Fin 256) (di : Fin 2) (w : Fin 256) (dj : Fin 2) :
    concatenate S8x64x256x2x256x2 3 [⟨S8x64x256x1x256x2, p⟩, ⟨S8x64x256x1x256x2, q⟩] hc (ix6 n ch h di w dj)
      = if di.val = 0 then p (ix6 n ch h (0 : Fin 1) w dj) else q (ix6 n ch h (0 : Fin 1) w dj) := by
  match di with
  | ⟨0, _⟩ =>
    rw [if_pos rfl]
    exact concatenate_pair_apply_left 3 p q hc _ rfl _ fun c => by
      match c with
      | ⟨0, _⟩ => rfl
      | ⟨1, _⟩ => rfl
      | ⟨2, _⟩ => rfl
      | ⟨3, _⟩ => rfl
      | ⟨4, _⟩ => rfl
      | ⟨5, _⟩ => rfl
  | ⟨1, _⟩ =>
    rw [if_neg Nat.one_ne_zero]
    exact concatenate_pair_apply_right 3 p q hc _ rfl rfl _ (fun c hne => by
      match c with
      | ⟨0, _⟩ => rfl
      | ⟨1, _⟩ => rfl
      | ⟨2, _⟩ => rfl
      | ⟨3, _⟩ => exact absurd rfl hne
      | ⟨4, _⟩ => rfl
      | ⟨5, _⟩ => rfl) rfl

/-- The six-axis array flattened to [8, 64, 512, 512], read at the pixel of (n, ch, h, di, w, dj). -/
theorem flatten_apply (x : S8x64x256x2x256x2.Idx → α) (hs : S8x64x256x2x256x2.ShapeCasts S8x64x512x512)
    (n : Fin 8) (ch : Fin 64) (h w : Fin 256) (di dj : Fin 2) :
    shapeCast S8x64x512x512 x hs (pixel n ch h w di dj) = x (ix6 n ch h di w dj) := by
  refine shapeCast_apply x hs _ _ ?_
  rw [Shape.rowMajor_val_six, Shape.rowMajor_val_four]
  show ((((n.val * 64 + ch.val) * 256 + h.val) * 2 + di.val) * 256 + w.val) * 2 + dj.val
    = ((n.val * 64 + ch.val) * 512 + (2 * h.val + di.val)) * 512 + (2 * w.val + dj.val)
  have := di.isLt
  have := dj.isLt
  omega

end Layout

/-- Where the broadcast that adds the fourth axis reads its operand. -/
theorem idx_mid (n : Fin 8) (ch : Fin 64) (h w : Fin 256) (dj : Fin 2) :
    idx_main_v26 (ix6 n ch h (0 : Fin 1) w dj) = ix5 n ch h w dj := by
  funext a
  match a with
  | ⟨0, _⟩ => rfl
  | ⟨1, _⟩ => rfl
  | ⟨2, _⟩ => rfl
  | ⟨3, _⟩ => rfl
  | ⟨4, _⟩ => rfl

/-- Where the broadcast that adds the trailing axis reads its operand. -/
theorem idx_last (n : Fin 8) (ch : Fin 64) (h w : Fin 256) :
    idx_main_v20 (ix5 n ch h w (0 : Fin 1)) = ix4 n ch h w := by
  funext a
  match a with
  | ⟨0, _⟩ => rfl
  | ⟨1, _⟩ => rfl
  | ⟨2, _⟩ => rfl
  | ⟨3, _⟩ => rfl

theorem idx_mid' (n : Fin 8) (ch : Fin 64) (h w : Fin 256) (dj : Fin 2) :
    idx_main_v27 (ix6 n ch h (0 : Fin 1) w dj) = ix5 n ch h w dj := idx_mid n ch h w dj
theorem idx_last21 (n : Fin 8) (ch : Fin 64) (h w : Fin 256) :
    idx_main_v21 (ix5 n ch h w (0 : Fin 1)) = ix4 n ch h w := idx_last n ch h w
theorem idx_last23 (n : Fin 8) (ch : Fin 64) (h w : Fin 256) :
    idx_main_v23 (ix5 n ch h w (0 : Fin 1)) = ix4 n ch h w := idx_last n ch h w
theorem idx_last24 (n : Fin 8) (ch : Fin 64) (h w : Fin 256) :
    idx_main_v24 (ix5 n ch h w (0 : Fin 1)) = ix4 n ch h w := idx_last n ch h w

/-- The reference's result at a pixel: the signed sum of the pixel's position, of the arguments at its cell. -/
theorem result_pixel (x0 x1 x2 x3 : (⟨S8x64x256x256, .f32⟩ : BufTy).Contents (Elt Ideal))
    (n : Fin 8) (ch : Fin 64) (h w : Fin 256) (di dj : Fin 2) :
    val_main_v29 (F := Ideal) x0 x1 x2 x3 (pixel n ch h w di dj)
      = quad di.val dj.val (x0 (ix4 n ch h w)) (x1 (ix4 n ch h w)) (x2 (ix4 n ch h w)) (x3 (ix4 n ch h w)) := by
  unfold val_main_v29
  rw [flatten_apply]
  unfold val_main_v28
  rw [joinMid_apply]
  match di, dj with
  | ⟨0, _⟩, ⟨0, _⟩ =>
    rw [if_pos rfl, val_main_v26_apply, idx_mid]
    unfold val_main_v22
    rw [joinLast_apply, if_pos rfl, val_main_v20_apply, idx_last, quad_00]
    rw [val_main_v4_apply, val_main_v3_apply, val_main_v2_apply, val_main_v1_apply, val_main_v0_apply]
    rfl
  | ⟨0, _⟩, ⟨1, _⟩ =>
    rw [if_pos rfl, val_main_v26_apply, idx_mid]
    unfold val_main_v22
    rw [joinLast_apply, if_neg Nat.one_ne_zero, val_main_v21_apply, idx_last21, quad_01]
    rw [val_main_v9_apply, val_main_v8_apply, val_main_v7_apply, val_main_v6_apply, val_main_v5_apply]
    rfl
  | ⟨1, _⟩, ⟨0, _⟩ =>
    rw [if_neg Nat.one_ne_zero, val_main_v27_apply, idx_mid']
    unfold val_main_v25
    rw [joinLast_apply, if_pos rfl, val_main_v23_apply, idx_last23, quad_10]
    rw [val_main_v14_apply, val_main_v13_apply, val_main_v12_apply, val_main_v11_apply, val_main_v10_apply]
    rfl
  | ⟨1, _⟩, ⟨1, _⟩ =>
    rw [if_neg Nat.one_ne_zero, val_main_v27_apply, idx_mid']
    unfold val_main_v25
    rw [joinLast_apply, if_neg Nat.one_ne_zero, val_main_v24_apply, idx_last24, quad_11]
    rw [val_main_v19_apply, val_main_v18_apply, val_main_v17_apply, val_main_v16_apply, val_main_v15_apply]
    rfl

/-- The reference's result is the reconstruction `G` of its arguments. -/
theorem result_eq (x0 x1 x2 x3 : (⟨S8x64x256x256, .f32⟩ : BufTy).Contents (Elt Ideal)) :
    val_main_v29 (F := Ideal) x0 x1 x2 x3 = G x0 x1 x2 x3 := by
  funext i
  obtain ⟨n, ch, h, w, di, dj, rfl⟩ := exists_pixel i
  rw [result_pixel, G_pixel]

end Cert.ReferenceIdeal.Hand

end
-- ==== Proof.lean ====
/-
  The inverse Haar transform: a tiled kernel against its whole-array reference, equal on the extended reals.

  Both programs take four sub-band arrays ll, lh, hl, hh of shape [8, 64, 256, 256] and return [8, 64, 512, 512].
  Output pixel (n, ch, 2h + di, 2w + dj) is one half times a signed sum of the four sub-band values at (n, ch, h, w),
  the signs chosen by the position (di, dj) in the 2 x 2 cell (Proof/HaarSpec.lean: `quad`, `G`). The two programs
  spell every signed sum with the same association and the same word for one half, so nothing algebraic separates
  them, and in particular nothing needs the inputs finite. What separates them is layout only:

  * the kernel flattens each sub-band to [512, 256, 256], walks a 16 x 8 grid of blocks [32, 32, 256], stores per
    block the four sums interleaved as [32, 32, 2, 256, 2], and the host merges the array [512, 256, 2, 256, 2] first
    to [512, 512, 512] and then to [8, 64, 512, 512];
  * the reference forms the four sums over whole arrays, interleaves them as [8, 64, 256, 2, 256, 2] and merges once.

  All the merges keep row-major position, and the position of (64 n + ch, h, di, w, dj), of (n, ch, h, di, w, dj) and
  of (n, ch, 2h + di, 2w + dj) in their shapes is one number. Proof/KernelCell.lean reads one stored block at an
  index, Proof/KernelArray.lean shows the 128 blocks are the blocks of one array and tile it, Proof/KernelLayout.lean
  reads the host's merges, Proof/KernelRun.lean puts these under the program's run, Proof/RefCell.lean reads the
  reference at a pixel. Both results are `G` of the arguments.

  The three frames are the programs' runs with the value forgotten; the idealization rewrote nothing, so there is
  nothing to preserve.
-/
import proofs.«161246_j88734024335380_1_alg».proof.Defs
import proofs.«161246_j88734024335380_1_alg».proof.Proof.Gen.Kernel
import proofs.«161246_j88734024335380_1_alg».proof.Proof.Gen.Kernel.Skeleton
import proofs.«161246_j88734024335380_1_alg».proof.Proof.Gen.Kernel.Launch
import proofs.«161246_j88734024335380_1_alg».proof.Proof.Gen.Kernel.Points
import proofs.«161246_j88734024335380_1_alg».proof.Proof.Gen.Kernel.Frame
import proofs.«161246_j88734024335380_1_alg».proof.Proof.Gen.KernelIdeal
import proofs.«161246_j88734024335380_1_alg».proof.Proof.Gen.KernelIdeal.Skeleton
import proofs.«161246_j88734024335380_1_alg».proof.Proof.Gen.KernelIdeal.Launch
import proofs.«161246_j88734024335380_1_alg».proof.Proof.Gen.KernelIdeal.Points
import proofs.«161246_j88734024335380_1_alg».proof.Proof.Gen.KernelIdeal.Frame
import proofs.«161246_j88734024335380_1_alg».proof.Proof.Gen.ReferenceIdeal
import proofs.«161246_j88734024335380_1_alg».proof.Proof.Gen.Pre_finite_inputs
import proofs.«161246_j88734024335380_1_alg».proof.Proof.Gen.ReferenceIdeal.Run
import proofs.«161246_j88734024335380_1_alg».proof.Proof.Gen.ReferenceIdeal.Read
import proofs.«161246_j88734024335380_1_alg».proof.Proof.KernelRun
import proofs.«161246_j88734024335380_1_alg».proof.Proof.RefCell
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four sub-bands, both programs end with the reconstruction `G` of them. -/
theorem algebraic : Cert.algebraic_KernelIdeal_ReferenceIdeal := by
  intro m ρ m' ρ' _ hagree
  refine ⟨fun c => Cert.Haar.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Hand.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
